-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x40 : Shape := ⟨2, ![256, 40]⟩
abbrev S40 : Shape := ⟨1, ![40]⟩
abbrev S40x20 : Shape := ⟨2, ![40, 20]⟩
abbrev S20 : Shape := ⟨1, ![20]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S40x20 : S_.BroadcastsInDim S40x20 (![] : Fin 0 → Fin S40x20.rank)
  reducesTo_S40x20_S_d0_1 : S40x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg5 : FVec F S20 .f32) (main_v13 : IVec S_ 1) (main_v16 : IVec S40x20 1) : IVec S_ 1 :=
  let main_c_5 : IVec S_ 1 := constantI S_ 1 1#1
  let main_v17 : IVec S_ 1 := (fun x v => Host.reduce IntOp.andi x v reducesTo_S40x20_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x40 .f32) (main_arg3 : FVec F S40 .f32) (main_arg4 : FVec F S40x20 .f32) (main_arg5 : FVec F S20 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x40 .f32 := Host.absf main_arg2
  let main_cst_0 : FVec F S_ .f32 := constant S_ .f32 0x7F800000#32
  let main_v5 : FVec F S256x40 .f32 := broadcastInDim S256x40 ![] bcast_S_S256x40 main_cst_0
  let main_v6 : IVec S256x40 1 := cmpf .olt main_v4 main_v5
  let main_c_1 : IVec S_ 1 := constantI S_ 1 1#1
  let main_v7 : IVec S_ 1 := (fun x v => Host.reduce IntOp.andi x v reducesTo_S256x40_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x20 .f32 := Host.absf main_arg4
  let main_cst_4 : FVec F S_ .f32 := constant S_ .f32 0x7F800000#32
  let main_v15 : FVec F S40x20 .f32 := broadcastInDim S40x20 ![] bcast_S_S40x20 main_cst_4
  let main_v16 : IVec S40x20 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x40 : Shape := ⟨2, ![256, 40]⟩
abbrev S40 : Shape := ⟨1, ![40]⟩
abbrev S40x20 : Shape := ⟨2, ![40, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x40 : Shape := ⟨2, ![100000, 40]⟩
abbrev S5000x256 : Shape := ⟨2, ![5000, 256]⟩
abbrev S5000x40 : Shape := ⟨2, ![5000, 40]⟩
abbrev S3300000x40 : Shape := ⟨2, ![3300000, 40]⟩
abbrev S1x40 : Shape := ⟨2, ![1, 40]⟩
abbrev S100000x20 : Shape := ⟨2, ![100000, 20]⟩
abbrev S5000x20 : Shape := ⟨2, ![5000, 20]⟩
abbrev S3300000x20 : Shape := ⟨2, ![3300000, 20]⟩
abbrev S1x20 : Shape := ⟨2, ![1, 20]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x40, .f32⟩
  | .hbm, ⟨3, _⟩ => ⟨S40, .f32⟩
  | .hbm, ⟨4, _⟩ => ⟨S40x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x40, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x40, .f32⟩
  | .hbm, ⟨56, _⟩ => ⟨S3300000x1, .f32⟩
  | .hbm, ⟨57, _⟩ => ⟨S3300000x40, .f32⟩
  | .hbm, ⟨58, _⟩ => ⟨S3300000x40, .f32⟩
  | .hbm, ⟨59, _⟩ => ⟨S_, .f32⟩
  | .hbm, ⟨60, _⟩ => ⟨S100000x40, .f32⟩
  | .hbm, ⟨61, _⟩ => ⟨S3300000x1, .i32⟩
  | .hbm, ⟨62, _⟩ => ⟨S100000x40, .f32⟩
  | .hbm, ⟨63, _⟩ => ⟨S1x40, .f32⟩
  | .hbm, ⟨64, _⟩ => ⟨S100000x40, .f32⟩
  | .hbm, ⟨65, _⟩ => ⟨S100000x40, .f32⟩
  | .hbm, ⟨66, _⟩ => ⟨S_, .f32⟩
  | .hbm, ⟨67, _⟩ => ⟨S100000x40, .f32⟩
  | .hbm, ⟨68, _⟩ => ⟨S100000x40, .f32⟩
  | .hbm, ⟨69, _⟩ => ⟨S100000x20, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x20, .f32⟩
  | .hbm, ⟨79, _⟩ => ⟨S3300000x1, .f32⟩
  | .hbm, ⟨80, _⟩ => ⟨S3300000x20, .f32⟩
  | .hbm, ⟨81, _⟩ => ⟨S3300000x20, .f32⟩
  | .hbm, ⟨82, _⟩ => ⟨S_, .f32⟩
  | .hbm, ⟨83, _⟩ => ⟨S100000x20, .f32⟩
  | .hbm, ⟨84, _⟩ => ⟨S3300000x1, .i32⟩
  | .hbm, ⟨85, _⟩ => ⟨S100000x20, .f32⟩
  | .hbm, ⟨86, _⟩ => ⟨S1x20, .f32⟩
  | .hbm, ⟨87, _⟩ => ⟨S100000x20, .f32⟩
  | .hbm, ⟨88, _⟩ => ⟨S100000x20, .f32⟩
  | .local _ .vmem, ⟨0, _⟩ => ⟨S5000x256, .f32⟩
  | .local _ .vmem, ⟨1, _⟩ => ⟨S5000x256, .f32⟩
  | .local _ .vmem, ⟨2, _⟩ => ⟨S256x40, .f32⟩
  | .local _ .vmem, ⟨3, _⟩ => ⟨S5000x40, .f32⟩
  | .local _ .vmem, ⟨4, _⟩ => ⟨S5000x40, .f32⟩
  | .local _ .vmem, ⟨5, _⟩ => ⟨S5000x40, .f32⟩
  | .local _ .vmem, ⟨6, _⟩ => ⟨S5000x40, .f32⟩
  | .local _ .vmem, ⟨7, _⟩ => ⟨S40x20, .f32⟩
  | .local _ .vmem, ⟨8, _⟩ => ⟨S5000x20, .f32⟩
  | .local _ .vmem, ⟨9, _⟩ => ⟨S5000x20, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  inb_S40x20_S40x20_0_0 : ∀ a, (![0, 0] : Fin 2 → Nat) a + S40x20.size a ≤ S40x20.size a
  h_S40x20 : 0 < S40x20.numel
  inb_S5000x20_S5000x20_0_0 : ∀ a, (![0, 0] : Fin 2 → Nat) a + S5000x20.size a ≤ S5000x20.size a
  h_S5000x20 : 0 < S5000x20.numel
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x40_S5000x40_1_0_0_1_n_n_wf : DotDims.WF S5000x256 S256x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  dot_S5000x40_S40x20_S5000x20_1_0_0_1_n_n_wf : DotDims.WF S5000x40 S40x20 S5000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x40.size a ≤ S256x40.size a
  hwx0_1 : ∀ i : grid0.Coords, EltTy.bits .f32 = 32 ∨ (Rect.block (s := S256x40) S256x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x40.size a ≤ S100000x40.size a
  hwx0_2 : ∀ i : grid0.Coords, EltTy.bits .f32 = 32 ∨ (Rect.block (s := S100000x40) S5000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x20.size a ≤ S40x20.size a
  hwx1_1 : ∀ i : grid1.Coords, EltTy.bits .f32 = 32 ∨ (Rect.block (s := S40x20) S40x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x20.size a ≤ S100000x20.size a
  hwx1_2 : ∀ i : grid1.Coords, EltTy.bits .f32 = 32 ∨ (Rect.block (s := S100000x20) S5000x20.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def dot_S5000x40_S40x20_S5000x20_1_0_0_1_n_n : DotDims S5000x40 S40x20 S5000x20 where
  lhsContracting := [1]
  rhsContracting := [0]
  lhsNonContracting := [0]
  rhsNonContracting := [1]
  lhsBatch := []
  rhsBatch := []
  wf := dot_S5000x40_S40x20_S5000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S40x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x20.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x40 : Shape := ⟨2, ![256, 40]⟩
abbrev S40 : Shape := ⟨1, ![40]⟩
abbrev S40x20 : Shape := ⟨2, ![40, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x40 : Shape := ⟨2, ![100000, 40]⟩
abbrev S3300000x40 : Shape := ⟨2, ![3300000, 40]⟩
abbrev S1x40 : Shape := ⟨2, ![1, 40]⟩
abbrev S100000x20 : Shape := ⟨2, ![100000, 20]⟩
abbrev S3300000x20 : Shape := ⟨2, ![3300000, 20]⟩
abbrev S1x20 : Shape := ⟨2, ![1, 20]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x40, .f32⟩
  | .hbm, ⟨3, _⟩ => ⟨S40, .f32⟩
  | .hbm, ⟨4, _⟩ => ⟨S40x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x40, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x40, .f32⟩
  | .hbm, ⟨56, _⟩ => ⟨S3300000x1, .f32⟩
  | .hbm, ⟨57, _⟩ => ⟨S3300000x40, .f32⟩
  | .hbm, ⟨58, _⟩ => ⟨S3300000x40, .f32⟩
  | .hbm, ⟨59, _⟩ => ⟨S_, .f32⟩
  | .hbm, ⟨60, _⟩ => ⟨S100000x40, .f32⟩
  | .hbm, ⟨61, _⟩ => ⟨S3300000x1, .i32⟩
  | .hbm, ⟨62, _⟩ => ⟨S100000x40, .f32⟩
  | .hbm, ⟨63, _⟩ => ⟨S1x40, .f32⟩
  | .hbm, ⟨64, _⟩ => ⟨S100000x40, .f32⟩
  | .hbm, ⟨65, _⟩ => ⟨S100000x40, .f32⟩
  | .hbm, ⟨66, _⟩ => ⟨S_, .f32⟩
  | .hbm, ⟨67, _⟩ => ⟨S100000x40, .f32⟩
  | .hbm, ⟨68, _⟩ => ⟨S100000x40, .f32⟩
  | .hbm, ⟨69, _⟩ => ⟨S100000x20, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x20, .f32⟩
  | .hbm, ⟨79, _⟩ => ⟨S3300000x1, .f32⟩
  | .hbm, ⟨80, _⟩ => ⟨S3300000x20, .f32⟩
  | .hbm, ⟨81, _⟩ => ⟨S3300000x20, .f32⟩
  | .hbm, ⟨82, _⟩ => ⟨S_, .f32⟩
  | .hbm, ⟨83, _⟩ => ⟨S100000x20, .f32⟩
  | .hbm, ⟨84, _⟩ => ⟨S3300000x1, .i32⟩
  | .hbm, ⟨85, _⟩ => ⟨S100000x20, .f32⟩
  | .hbm, ⟨86, _⟩ => ⟨S1x20, .f32⟩
  | .hbm, ⟨87, _⟩ => ⟨S100000x20, .f32⟩
  | .hbm, ⟨88, _⟩ => ⟨S100000x20, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x40_S100000x40_1_0_0_1_n_n_wf : DotDims.WF S100000x256 S256x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  dot_S100000x40_S40x20_S100000x20_1_0_0_1_n_n_wf : DotDims.WF S100000x40 S40x20 S100000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def dot_S100000x40_S40x20_S100000x20_1_0_0_1_n_n : DotDims S100000x40 S40x20 S100000x20 where
  lhsContracting := [1]
  rhsContracting := [0]
  lhsNonContracting := [0]
  rhsNonContracting := [1]
  lhsBatch := []
  rhsBatch := []
  wf := dot_S100000x40_S40x20_S100000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf

class Facts : Prop extends Facts₀ where

variable [Facts]
-- ==== Proof.KernelRun.lean ====
/-
  The idealized kernel's whole run, with its RESULT named.

  The program is eight segments: three stretches of host operations, the first dense layer's region, two stretches, the
  second dense layer's region, and the closing stretch. The buffer contents at each boundary are a fold from the launch
  memory (`Gen.W0 … Gen.W8`: a stretch applies its operations' results, a region replaces its arrays by what its
  write-backs leave). Every weakly fair execution terminates, without a fault, with every buffer no scope owns at the
  last boundary's contents `Gen.W8`; read at the result buffer that is the statement below, read at an argument's
  buffer it is the argument as launched. What `Gen.W8` holds at the result buffer, as a function of the arguments, is
  the business of the other modules.
-/
import proofs.«124285_j84911503442106_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- From any memory with zero counters every weakly fair execution of the program terminates, nothing faulting, with
    the result buffer at the last boundary's contents and the six arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.ReferenceRun.lean ====
/-
  The reference's run, stated at the fold of its operations: every weakly fair execution of the reference terminates,
  nothing faulting, with its result buffer at what its 83 host operations, applied in order to the launch contents,
  leave there, and its six arguments as launched (no operation writes an argument's buffer, so the fold read at an
  argument walks back to the launch memory).
-/
import proofs.«124285_j84911503442106_1_alg».proof.Proof.RefRunPatched

noncomputable section

namespace Cert.ReferenceIdeal.Whole

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 8000000 in
theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = after (ops (F := F)) (launchContents m c) (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v64,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Whole

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«124285_j84911503442106_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.Dense.lean ====
/-
  A dense layer's product as ONE function of its two arrays, over the extended reals: entry `(p, q)` of `x · w` is
  `Σ_k x[p, k] · w[k, q]`, a finite sum over the contracted axis.

  Two programs' spellings of it are this function. A matrix product into the zero accumulator whose operands were first
  rounded to a narrower float format: at the ideal values a change of format is the identity, and the accumulator adds
  nothing. And the host's `dot_general` contracting the left operand's axis 1 with the right operand's axis 0. Neither
  needs the entries to be finite: both are literally the same sum, taken over the same index set in the same order, so no
  law of arithmetic is used beyond `0 + s = s`.
-/
import proofs.«124285_j84911503442106_1_alg».proof.Proof.LibMatmulEntry
import proofs.«124285_j84911503442106_1_alg».proof.Proof.LibDotGeneralEntry

noncomputable section

open scoped BigOperators

namespace Cert.Dense

open Idealize.ShloMosaic Idealize.ShloMosaic.ValueIdx

/-- Rows times columns: entry `(p, q)` is `Σ_k x[p, k] · w[k, q]`. -/
def rowsCols {M K N : Nat} {φ₁ φ₂ : FTy} (x : FVec Ideal ⟨2, ![M, K]⟩ φ₁) (w : FVec Ideal ⟨2, ![K, N]⟩ φ₂) :
    FVec Ideal ⟨2, ![M, N]⟩ .f32 :=
  fun i => ∑ k : Fin K, x (ix2 (i 0) k) * w (ix2 k (i 1))

theorem rowsCols_apply {M K N : Nat} {φ₁ φ₂ : FTy} (x : FVec Ideal ⟨2, ![M, K]⟩ φ₁) (w : FVec Ideal ⟨2, ![K, N]⟩ φ₂)
    (p : Fin M) (q : Fin N) : rowsCols x w (ix2 p q) = ∑ k : Fin K, x (ix2 p k) * w (ix2 k q) := rfl

/-- A matrix product `[M, K] × [K, N] → [M, N]` into the zero accumulator, of operands each rounded from a wider float
    format first, is the product of the operands as they were. -/
theorem matmul_truncf {M K N : Nat} {φ₁ φ₂ ψ₁ ψ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (x : FVec Ideal ⟨2, ![M, K]⟩ φ₁) (w : FVec Ideal ⟨2, ![K, N]⟩ φ₂)
    (h₁ : ψ₁.bits < φ₁.bits) (h₂ : ψ₂.bits < φ₂.bits) :
    matmul D prec (truncf ψ₁ x h₁) (truncf ψ₂ w h₂) (constant ⟨2, ![M, N]⟩ .f32 0x00000000#32) = rowsCols x w := by
  funext i
  obtain ⟨p, q, rfl⟩ : ∃ (p : Fin M) (q : Fin N), i = ix2 p q := ⟨i 0, i 1, eq_ix2 i⟩
  exact Ideal.matmul_rows_cols D hlb hln hlc hrb hrn hrc prec (truncf ψ₁ x h₁) (truncf ψ₂ w h₂) p q

/-- The host's `dot_general` of the same layout is the product too, whatever its schedule. -/
theorem dotGeneral_eq {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (x : FVec Ideal ⟨2, ![M, K]⟩ φ₁) (w : FVec Ideal ⟨2, ![K, N]⟩ φ₂) :
    Host.dotGeneral D prec x w = rowsCols x w := by
  funext i
  obtain ⟨p, q, rfl⟩ : ∃ (p : Fin M) (q : Fin N), i = ix2 p q := ⟨i 0, i 1, eq_ix2 i⟩
  exact Ideal.dotGeneral_rows_cols D hlb hln hlc hrb hrn hrc prec _ x w p q

end Cert.Dense

end
-- ==== Proof.Layer1.lean ====
/-
  The first dense layer's region: `x · W1` over a grid of 20 points, point `t` taking rows `5000 t … 5000 t + 4999` of
  `x` (all 256 columns) and the whole of `W1`, and writing rows `5000 t … 5000 t + 4999` of the result (all 40 columns).

  The body's one store holds the matrix product of its two loaded blocks, each rounded to a narrower format on the way in,
  into the zero accumulator: the product of the blocks (`Cert.Dense.matmul_truncf`). Row `r` of block `t` of `x` is row
  `5000 t + r` of `x`, and `W1`'s block is `W1`; so what point `t` writes back is block `t` of the product of the whole
  arrays. The twenty blocks tile the result's rows, so after the region the result array IS the product of the two
  arrays as the region found them — for ANY contents `V` the region is entered from.
-/
import proofs.«124285_j84911503442106_1_alg».proof.Proof.Gen.KernelIdeal.Frame
import proofs.«124285_j84911503442106_1_alg».proof.Proof.Dense
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the product of its two loaded blocks. -/
theorem stored_eq (x0 : FVec Ideal S5000x256 .f32) (x1 : FVec Ideal S256x40 .f32) :
    k0_pay1 (F := Ideal) x0 x1 = Cert.Dense.rowsCols (M := 5000) (K := 256) (N := 40) (φ₁ := .f32) (φ₂ := .f32) x0 x1 :=
  Cert.Dense.matmul_truncf dot_S5000x256_S256x40_S5000x40_1_0_0_1_n_n rfl rfl rfl rfl rfl rfl none x0 x1
    bitsLt_bf16_f32 bitsLt_bf16_f32

/-- The printed index maps over the grid: point `t` takes row-block `t` of `x` and of the result, column-block 0
    of both, and block `(0, 0)` of `W1`. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The two operand arrays as the region finds them. -/
abbrev leftArr (c : Dev nD) : FVec Ideal S100000x256 .f32 := V c main_arg0
abbrev rightArr (c : Dev nD) : FVec Ideal S256x40 .f32 := V c main_arg2

/-- The product of the two arrays the region is entered with. -/
abbrev product (c : Dev nD) : FVec Ideal S100000x40 .f32 :=
  Cert.Dense.rowsCols (M := 100000) (K := 256) (N := 40) (φ₁ := .f32) (φ₂ := .f32) (leftArr V c) (rightArr V c)

/-- What point `t` writes back is block `t` of the product of the whole arrays. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x40) offsets_zero]
  rw [stored_eq (iblk0 V c 0 t) (iblk0 V c 1 t)]
  obtain ⟨e0, e1, e2, e3, e4, e5⟩ := index_facts t
  refine funext fun (j : S5000x40.Idx) => ?_
  show (∑ k : Fin 256, leftArr V c (((cfg0.win 0).blk t).view.emb (ix2 (n0 := 5000) (n1 := 256) (j 0) k))
        * rightArr V c (((cfg0.win 1).blk t).view.emb (ix2 (n0 := 256) (n1 := 40) k (j 1))))
      = ∑ k : Fin 256, leftArr V c (ix2 (n0 := 100000) (n1 := 256) ((((cfg0.win 2).blk t).view.emb j) 0) k)
        * rightArr V c (ix2 (n0 := 256) (n1 := 40) k ((((cfg0.win 2).blk t).view.emb j) 1))
  refine Finset.sum_congr rfl fun k _ => ?_
  have h0 : ((cfg0.win 0).blk t).view.emb (ix2 (n0 := 5000) (n1 := 256) (j 0) k)
      = ix2 (n0 := 100000) (n1 := 256) ((((cfg0.win 2).blk t).view.emb j) 0) k := by
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have h1 : ((cfg0.win 1).blk t).view.emb (ix2 (n0 := 256) (n1 := 40) k (j 1))
      = ix2 (n0 := 256) (n1 := 40) k ((((cfg0.win 2).blk t).view.emb j) 1) := by
    funext a; apply Fin.ext
    match a with
    | ⟨0, _⟩ =>
      show win0_1.index t (0 : Fin 2) * 256 + 1 * k.val = k.val
      omega
    | ⟨1, _⟩ =>
      show win0_1.index t (1 : Fin 2) * 40 + 1 * (j 1).val = win0_2.index t (1 : Fin 2) * 40 + 1 * (j 1).val
      omega
  rw [h0, h1]

/-- An entry of the result lies in point `t`'s block iff each coordinate is in the block's range on its axis. -/
theorem mem_block (t : Fin cfg0.N) (i : S100000x40.Idx) :
    i ∈ ((cfg0.win 2).blk t).view.set ↔ ∀ a : Fin 2, win0_2.index t a * S5000x40.size a ≤ (i a).val
      ∧ (i a).val < win0_2.index t a * S5000x40.size a + S5000x40.size a := by
  show i ∈ ((View.whole main_v30).slice (win0_2.rect t)).set ↔ _
  rw [View.set_slice_whole, Rect.mem_set_unit]
  exact Iff.rfl

/-- Every entry of the result is in the block of the point that takes its row: row `r` belongs to point `r / 5000`. -/
theorem covered (i : S100000x40.Idx) :
    ∃ t : Fin cfg0.N, (cfg0.win 2).flush t = true ∧ i ∈ ((cfg0.win 2).blk t).view.set := by
  have hi0 : (i 0).val < 100000 := (i 0).isLt
  have hi1 : (i 1).val < 40 := (i 1).isLt
  have hN : cfg0.N = 20 := N_0
  have ht : (i 0).val / 5000 < cfg0.N := by rw [hN]; omega
  obtain ⟨e0, e1, e2, e3, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 40 ≤ (i 1).val
      ∧ (i 1).val < win0_2.index ⟨(i 0).val / 5000, ht⟩ (1 : Fin 2) * 40 + 40
    omega

/-- After the region the result array is the product of the two arrays the region was entered with. -/
theorem result_eq (c : Dev nD) : (dat0 V c).arrAt 2 cfg0.N = product V c :=
  (dat0 V c).arrAt_eq_of_cover 2 (product V c) (fun t _ => flushed_eq V c t) covered

end Cert.KernelIdeal.Layer1

end
-- ==== Proof.Layer2.lean ====
/-
  The second dense layer's region: `h · W2` over a grid of 20 points, where `h` is the `[100000, 40]` array of first-layer
  activations as the region finds it. Point `t` takes rows `5000 t … 5000 t + 4999` of `h` (all 40 columns) and the whole
  of `W2`, and writes rows `5000 t … 5000 t + 4999` of the result (all 20 columns).

  The body casts its loaded block of `h` to the shape it already has, rounds both blocks to a narrower format, and stores
  their matrix product into the zero accumulator: the product of the blocks (a cast between equal shapes is the identity;
  `Cert.Dense.matmul_truncf`). Row `r` of block `t` of `h` is row `5000 t + r` of `h`, and `W2`'s block is `W2`; so what
  point `t` writes back is block `t` of the product of the whole arrays. The twenty blocks tile the result's rows, so after
  the region the result array IS the product of the two arrays as the region found them — for ANY contents `V` the
  region is entered from.
-/
import proofs.«124285_j84911503442106_1_alg».proof.Proof.Gen.KernelIdeal.Frame
import proofs.«124285_j84911503442106_1_alg».proof.Proof.Dense
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the product of its two loaded blocks: the cast of the left block to its own shape
    changes nothing. -/
theorem stored_eq (x0 : FVec Ideal S5000x40 .f32) (x1 : FVec Ideal S40x20 .f32) :
    k1_pay1 (F := Ideal) x0 x1 = Cert.Dense.rowsCols (M := 5000) (K := 40) (N := 20) (φ₁ := .f32) (φ₂ := .f32) x0 x1 := by
  unfold k1_pay1
  rw [shapeCast_self x0 shapeCasts_S5000x40_S5000x40]
  exact Cert.Dense.matmul_truncf dot_S5000x40_S40x20_S5000x20_1_0_0_1_n_n rfl rfl rfl rfl rfl rfl none x0 x1
    bitsLt_bf16_f32 bitsLt_bf16_f32

/-- The printed index maps over the grid: point `t` takes row-block `t` of `h` and of the result, column-block 0
    of both, and block `(0, 0)` of `W2`. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The two operand arrays as the region finds them: the activations `h` and the weights `W2`. -/
abbrev leftArr (c : Dev nD) : FVec Ideal S100000x40 .f32 := V c main_v47
abbrev rightArr (c : Dev nD) : FVec Ideal S40x20 .f32 := V c main_arg4

/-- The product of the two arrays the region is entered with. -/
abbrev product (c : Dev nD) : FVec Ideal S100000x20 .f32 :=
  Cert.Dense.rowsCols (M := 100000) (K := 40) (N := 20) (φ₁ := .f32) (φ₂ := .f32) (leftArr V c) (rightArr V c)

/-- What point `t` writes back is block `t` of the product of the whole arrays. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero offsets_zero]
  simp only [View.ld_unit_zero (S := S5000x40) offsets_zero, View.ld_unit_zero (S := S40x20) offsets_zero]
  rw [stored_eq (iblk1 V c 0 t) (iblk1 V c 1 t)]
  obtain ⟨e0, e1, e2, e3, e4, e5⟩ := index_facts t
  refine funext fun (j : S5000x20.Idx) => ?_
  show (∑ k : Fin 40, leftArr V c (((cfg1.win 0).blk t).view.emb (ix2 (n0 := 5000) (n1 := 40) (j 0) k))
        * rightArr V c (((cfg1.win 1).blk t).view.emb (ix2 (n0 := 40) (n1 := 20) k (j 1))))
      = ∑ k : Fin 40, leftArr V c (ix2 (n0 := 100000) (n1 := 40) ((((cfg1.win 2).blk t).view.emb j) 0) k)
        * rightArr V c (ix2 (n0 := 40) (n1 := 20) k ((((cfg1.win 2).blk t).view.emb j) 1))
  refine Finset.sum_congr rfl fun k _ => ?_
  have h0 : ((cfg1.win 0).blk t).view.emb (ix2 (n0 := 5000) (n1 := 40) (j 0) k)
      = ix2 (n0 := 100000) (n1 := 40) ((((cfg1.win 2).blk t).view.emb j) 0) k := by
    funext a; apply Fin.ext
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 40 + 1 * k.val = k.val
      omega
  have h1 : ((cfg1.win 1).blk t).view.emb (ix2 (n0 := 40) (n1 := 20) k (j 1))
      = ix2 (n0 := 40) (n1 := 20) k ((((cfg1.win 2).blk t).view.emb j) 1) := by
    funext a; apply Fin.ext
    match a with
    | ⟨0, _⟩ =>
      show win1_1.index t (0 : Fin 2) * 40 + 1 * k.val = k.val
      omega
    | ⟨1, _⟩ =>
      show win1_1.index t (1 : Fin 2) * 20 + 1 * (j 1).val = win1_2.index t (1 : Fin 2) * 20 + 1 * (j 1).val
      omega
  rw [h0, h1]

/-- An entry of the result lies in point `t`'s block iff each coordinate is in the block's range on its axis. -/
theorem mem_block (t : Fin cfg1.N) (i : S100000x20.Idx) :
    i ∈ ((cfg1.win 2).blk t).view.set ↔ ∀ a : Fin 2, win1_2.index t a * S5000x20.size a ≤ (i a).val
      ∧ (i a).val < win1_2.index t a * S5000x20.size a + S5000x20.size a := by
  show i ∈ ((View.whole main_v48).slice (win1_2.rect t)).set ↔ _
  rw [View.set_slice_whole, Rect.mem_set_unit]
  exact Iff.rfl

/-- Every entry of the result is in the block of the point that takes its row: row `r` belongs to point `r / 5000`. -/
theorem covered (i : S100000x20.Idx) :
    ∃ t : Fin cfg1.N, (cfg1.win 2).flush t = true ∧ i ∈ ((cfg1.win 2).blk t).view.set := by
  have hi0 : (i 0).val < 100000 := (i 0).isLt
  have hi1 : (i 1).val < 20 := (i 1).isLt
  have hN : cfg1.N = 20 := N_1
  have ht : (i 0).val / 5000 < cfg1.N := by rw [hN]; omega
  obtain ⟨e0, e1, e2, e3, e4, e5⟩ := index_facts ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 20 ≤ (i 1).val
      ∧ (i 1).val < win1_2.index ⟨(i 0).val / 5000, ht⟩ (1 : Fin 2) * 20 + 20
    omega

/-- After the region the result array is the product of the two arrays the region was entered with. -/
theorem result_eq (c : Dev nD) : (dat1 V c).arrAt 2 cfg1.N = product V c :=
  (dat1 V c).arrAt_eq_of_cover 2 (product V c) (fun t _ => flushed_eq V c t) covered

end Cert.KernelIdeal.Layer2

end
-- ==== Proof.RefStretches.lean ====
/-
  The reference program's 83 host operations, cut at its two matrix products: the operations that build the edge list
  with its self-loops and the symmetric normalisation `deg^(-1/2)[src] · deg^(-1/2)[dst]` (40 operations, reading only
  the edge array); the first product `x · W1`; the first layer's gather, scale, segment sum, bias and `max(·, 0)` (22
  operations); the second product; the second layer's gather, scale, segment sum and bias (19 operations). The whole
  list is the five pieces in order, so the contents after the whole list are those after the pieces one by one.
  The operations are the program's own, in the program's own spelling.
-/
import proofs.«124285_j84911503442106_1_alg».proof.Proof.RefRunPatched

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The edge list with self-loops and the normalisation: everything before the first product. -/
abbrev opsNorm : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first dense product, `x · W1`. -/
abbrev opProduct1 : HloOp τ sig (Elt F) :=
  binary main_arg0 main_arg2 main_v30 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F))

/-- Gather by source, scale, sum by destination, add the bias, clamp at zero. -/
abbrev opsLayer1 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x40 ![0, 1] bcast_S3300000x1_S3300000x40_0_1 : (⟨S3300000x1, .f32⟩ : BufTy).Contents (Elt F) → (⟨S3300000x40, .f32⟩ : BufTy).Contents (Elt F)),
    binary main_v37 main_v39 main_v40 (mulf : (⟨S3300000x40, .f32⟩ : BufTy).Contents (Elt F) → (⟨S3300000x40, .f32⟩ : BufTy).Contents (Elt F) → (⟨S3300000x40, .f32⟩ : BufTy).Contents (Elt F)),
    nullary main_cst_8 (constant S_ .f32 0x00000000#32),
    unary main_cst_8 main_v41 (broadcastInDim S100000x40 ![] bcast_S_S100000x40 : (⟨S_, .f32⟩ : BufTy).Contents (Elt F) → (⟨S100000x40, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg3 main_v44 (broadcastInDim S1x40 ![1] bcast_S40_S1x40_1 : (⟨S40, .f32⟩ : BufTy).Contents (Elt F) → (⟨S1x40, .f32⟩ : BufTy).Contents (Elt F)),
    unary main_v44 main_v45 (broadcastInDim S100000x40 ![0, 1] bcast_S1x40_S100000x40_0_1 : (⟨S1x40, .f32⟩ : BufTy).Contents (Elt F) → (⟨S100000x40, .f32⟩ : BufTy).Contents (Elt F)),
    binary main_v43 main_v45 main_v46 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v46) (TRef.of (T := ⟨S100000x40, .f32⟩) main_call1_v0) (TRef.of (T := ⟨S100000x40, .f32⟩) main_v47) maximumf ]

/-- The second dense product. -/
abbrev opProduct2 : HloOp τ sig (Elt F) :=
  binary main_v47 main_arg4 main_v48 ((fun l r => Host.dotGeneral dot_S100000x40_S40x20_S100000x20_1_0_0_1_n_n none l r) : (⟨S100000x40, .f32⟩ : BufTy).Contents (Elt F) → (⟨S40x20, .f32⟩ : BufTy).Contents (Elt F) → (⟨S100000x20, .f32⟩ : BufTy).Contents (Elt F))

/-- Gather by source, scale, sum by destination, add the bias. -/
abbrev opsLayer2 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x20_S3300000x1_S3300000x20_1_0_n_n_0_1_120 x i) : (⟨S100000x20, .f32⟩ : BufTy).Contents (Elt F) → (⟨S3300000x1, .i32⟩ : BufTy).Contents (Elt F) → (⟨S3300000x20, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x20 ![0, 1] bcast_S3300000x1_S3300000x20_0_1 : (⟨S3300000x1, .f32⟩ : BufTy).Contents (Elt F) → (⟨S3300000x20, .f32⟩ : BufTy).Contents (Elt F)),
    binary main_v55 main_v57 main_v58 (mulf : (⟨S3300000x20, .f32⟩ : BufTy).Contents (Elt F) → (⟨S3300000x20, .f32⟩ : BufTy).Contents (Elt F) → (⟨S3300000x20, .f32⟩ : BufTy).Contents (Elt F)),
    nullary main_cst_11 (constant S_ .f32 0x00000000#32),
    unary main_cst_11 main_v59 (broadcastInDim S100000x20 ![] bcast_S_S100000x20 : (⟨S_, .f32⟩ : BufTy).Contents (Elt F) → (⟨S100000x20, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x20_S3300000x1_S3300000x20_1_0_0_1 x i u) : (⟨S100000x20, .f32⟩ : BufTy).Contents (Elt F) → (⟨S3300000x1, .i32⟩ : BufTy).Contents (Elt F) → (⟨S3300000x20, .f32⟩ : BufTy).Contents (Elt F) → (⟨S100000x20, .f32⟩ : BufTy).Contents (Elt F)),
    unary main_arg5 main_v62 (broadcastInDim S1x20 ![1] bcast_S20_S1x20_1 : (⟨S20, .f32⟩ : BufTy).Contents (Elt F) → (⟨S1x20, .f32⟩ : BufTy).Contents (Elt F)),
    unary main_v62 main_v63 (broadcastInDim S100000x20 ![0, 1] bcast_S1x20_S100000x20_0_1 : (⟨S1x20, .f32⟩ : BufTy).Contents (Elt F) → (⟨S100000x20, .f32⟩ : BufTy).Contents (Elt F)),
    binary main_v61 main_v63 main_v64 (addf : (⟨S100000x20, .f32⟩ : BufTy).Contents (Elt F) → (⟨S100000x20, .f32⟩ : BufTy).Contents (Elt F) → (⟨S100000x20, .f32⟩ : BufTy).Contents (Elt F)) ]

/-- The program's operations are the five pieces in order. -/
theorem ops_eq : (Cert.ReferenceIdeal.ValueP.ops : List (HloOp τ sig (Elt F)))
    = opsNorm ++ opProduct1 :: (opsLayer1 ++ opProduct2 :: opsLayer2) := rfl

/-- Contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole program, piece by piece. -/
theorem after_ops (V : Valuation τ sig (Elt F)) :
    after (Cert.ReferenceIdeal.ValueP.ops : List (HloOp τ sig (Elt F))) V
      = after opsLayer2 (opProduct2.result (after opsLayer1 (opProduct1.result (after opsNorm V)))) := by
  rw [ops_eq, after_append, after_cons, after_append, after_cons]

end Cert.ReferenceIdeal.Stretches

end
-- ==== Proof.HostStretches.lean ====
/-
  The host operations around the two dense products are the same operations in the kernel's program and in the
  reference: the same gathers, scalings, segment sums, biases and clamp, applied to buffers of the same shapes. So each
  stretch of them, run from buffer contents that agree on the buffers the stretch READS, leaves contents that agree on
  the buffers it WRITES, and leaves alone what it does not write — at any interpretation of the floats, with no
  arithmetic at all: both sides are one and the same composition of operations, applied to equal operands.

  Stated over ARBITRARY contents of the two programs' buffers, one lemma per stretch: the edge list with self-loops and
  the normalisation (before the first product), the first layer's tail (between the products), the second layer's tail
  (after the second product); and, for the reference, what each product's own operation writes and keeps.
-/
import proofs.«124285_j84911503442106_1_alg».proof.Proof.Gen.KernelIdeal.Launch
import proofs.«124285_j84911503442106_1_alg».proof.Proof.RefStretches

noncomputable section

namespace Cert.Bridge

open Idealize.ShloMosaic Idealize.ShloMosaic.TcCoe Idealize.SL.Sem Idealize.ShloMosaic.StableHlo

/-- Each operation's result still standing in a goal, read at its own buffer as the operation's function of its
    operands and at any other buffer as what was there, one rewrite at a time — also inside a concatenation's list of
    operands, which a single simplification pass does not enter. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F]

/-- Contents of the kernel program's buffers on one core, and of the reference's. -/
abbrev KV (F : FTy → Type) := Valuation Cert.KernelIdeal.τ Cert.KernelIdeal.sig (Elt F)
abbrev RV (F : FTy → Type) := Valuation Cert.ReferenceIdeal.τ Cert.ReferenceIdeal.sig (Elt F)

open Cert.KernelIdeal.Gen

/-! ## Before the first product -/

set_option maxHeartbeats 2000000 in
/-- From contents that agree on the six arguments, the operations before the first product leave contents that agree on
    the source list, the destination list and the normalisation, and still on the five float arguments. -/
theorem before_products (WK : KV F) (WR : RV F)
    (h0 : WK (Proc.devRef .tc Cert.KernelIdeal.main_arg0) = WR (Proc.devRef .tc Cert.ReferenceIdeal.main_arg0)) (h1 : WK (Proc.devRef .tc Cert.KernelIdeal.main_arg1) = WR (Proc.devRef .tc Cert.ReferenceIdeal.main_arg1)) (h2 : WK (Proc.devRef .tc Cert.KernelIdeal.main_arg2) = WR (Proc.devRef .tc Cert.ReferenceIdeal.main_arg2))
    (h3 : WK (Proc.devRef .tc Cert.KernelIdeal.main_arg3) = WR (Proc.devRef .tc Cert.ReferenceIdeal.main_arg3)) (h4 : WK (Proc.devRef .tc Cert.KernelIdeal.main_arg4) = WR (Proc.devRef .tc Cert.ReferenceIdeal.main_arg4)) (h5 : WK (Proc.devRef .tc Cert.KernelIdeal.main_arg5) = WR (Proc.devRef .tc Cert.ReferenceIdeal.main_arg5)) :
    (after (hostOps0_2 (F := F)) (after hostOps0_1 (after hostOps0 WK))) (Proc.devRef .tc Cert.KernelIdeal.main_v3) = (after (Cert.ReferenceIdeal.Stretches.opsNorm (F := F)) WR) (Proc.devRef .tc Cert.ReferenceIdeal.main_v3)
      ∧ (after (hostOps0_2 (F := F)) (after hostOps0_1 (after hostOps0 WK))) (Proc.devRef .tc Cert.KernelIdeal.main_v6) = (after (Cert.ReferenceIdeal.Stretches.opsNorm (F := F)) WR) (Proc.devRef .tc Cert.ReferenceIdeal.main_v6)
      ∧ (after (hostOps0_2 (F := F)) (after hostOps0_1 (after hostOps0 WK))) (Proc.devRef .tc Cert.KernelIdeal.main_v29) = (after (Cert.ReferenceIdeal.Stretches.opsNorm (F := F)) WR) (Proc.devRef .tc Cert.ReferenceIdeal.main_v29)
      ∧ (after (hostOps0_2 (F := F)) (after hostOps0_1 (after hostOps0 WK))) (Proc.devRef .tc Cert.KernelIdeal.main_arg0) = (after (Cert.ReferenceIdeal.Stretches.opsNorm (F := F)) WR) (Proc.devRef .tc Cert.ReferenceIdeal.main_arg0)
      ∧ (after (hostOps0_2 (F := F)) (after hostOps0_1 (after hostOps0 WK))) (Proc.devRef .tc Cert.KernelIdeal.main_arg2) = (after (Cert.ReferenceIdeal.Stretches.opsNorm (F := F)) WR) (Proc.devRef .tc Cert.ReferenceIdeal.main_arg2)
      ∧ (after (hostOps0_2 (F := F)) (after hostOps0_1 (after hostOps0 WK))) (Proc.devRef .tc Cert.KernelIdeal.main_arg3) = (after (Cert.ReferenceIdeal.Stretches.opsNorm (F := F)) WR) (Proc.devRef .tc Cert.ReferenceIdeal.main_arg3)
      ∧ (after (hostOps0_2 (F := F)) (after hostOps0_1 (after hostOps0 WK))) (Proc.devRef .tc Cert.KernelIdeal.main_arg4) = (after (Cert.ReferenceIdeal.Stretches.opsNorm (F := F)) WR) (Proc.devRef .tc Cert.ReferenceIdeal.main_arg4)
      ∧ (after (hostOps0_2 (F := F)) (after hostOps0_1 (after hostOps0 WK))) (Proc.devRef .tc Cert.KernelIdeal.main_arg5) = (after (Cert.ReferenceIdeal.Stretches.opsNorm (F := F)) WR) (Proc.devRef .tc Cert.ReferenceIdeal.main_arg5) := by
  refine ⟨?_, ?_, ?_, ?_, ?_, ?_, ?_, ?_⟩
  · after_results_simp
    results_rw
    rw [h1]
    rfl
  · after_results_simp
    results_rw
    rw [h1]
    rfl
  · after_results_simp
    results_rw
    rw [h1]
    rfl
  · after_results_simp
    results_rw
    rw [h0]
  · after_results_simp
    results_rw
    rw [h2]
  · after_results_simp
    results_rw
    rw [h3]
  · after_results_simp
    results_rw
    rw [h4]
  · after_results_simp
    results_rw
    rw [h5]

/-! ## Between the products -/

set_option maxHeartbeats 2000000 in
/-- From contents that agree on the first product, the two index lists, the normalisation and the remaining arguments,
    the first layer's tail leaves contents that agree on the clamped activations, and still on the lists, the
    normalisation and the second layer's arguments. -/
theorem between_products (WK : KV F) (WR : RV F)
    (h30 : WK (Proc.devRef .tc Cert.KernelIdeal.main_v30) = WR (Proc.devRef .tc Cert.ReferenceIdeal.main_v30)) (h3 : WK (Proc.devRef .tc Cert.KernelIdeal.main_v3) = WR (Proc.devRef .tc Cert.ReferenceIdeal.main_v3)) (h6 : WK (Proc.devRef .tc Cert.KernelIdeal.main_v6) = WR (Proc.devRef .tc Cert.ReferenceIdeal.main_v6)) (h29 : WK (Proc.devRef .tc Cert.KernelIdeal.main_v29) = WR (Proc.devRef .tc Cert.ReferenceIdeal.main_v29))
    (hb1 : WK (Proc.devRef .tc Cert.KernelIdeal.main_arg3) = WR (Proc.devRef .tc Cert.ReferenceIdeal.main_arg3)) (hw2 : WK (Proc.devRef .tc Cert.KernelIdeal.main_arg4) = WR (Proc.devRef .tc Cert.ReferenceIdeal.main_arg4)) (hb2 : WK (Proc.devRef .tc Cert.KernelIdeal.main_arg5) = WR (Proc.devRef .tc Cert.ReferenceIdeal.main_arg5)) :
    (after (hostOps1_1 (F := F)) (after hostOps1 WK)) (Proc.devRef .tc Cert.KernelIdeal.main_v47) = (after (Cert.ReferenceIdeal.Stretches.opsLayer1 (F := F)) WR) (Proc.devRef .tc Cert.ReferenceIdeal.main_v47)
      ∧ (after (hostOps1_1 (F := F)) (after hostOps1 WK)) (Proc.devRef .tc Cert.KernelIdeal.main_v3) = (after (Cert.ReferenceIdeal.Stretches.opsLayer1 (F := F)) WR) (Proc.devRef .tc Cert.ReferenceIdeal.main_v3)
      ∧ (after (hostOps1_1 (F := F)) (after hostOps1 WK)) (Proc.devRef .tc Cert.KernelIdeal.main_v6) = (after (Cert.ReferenceIdeal.Stretches.opsLayer1 (F := F)) WR) (Proc.devRef .tc Cert.ReferenceIdeal.main_v6)
      ∧ (after (hostOps1_1 (F := F)) (after hostOps1 WK)) (Proc.devRef .tc Cert.KernelIdeal.main_v29) = (after (Cert.ReferenceIdeal.Stretches.opsLayer1 (F := F)) WR) (Proc.devRef .tc Cert.ReferenceIdeal.main_v29)
      ∧ (after (hostOps1_1 (F := F)) (after hostOps1 WK)) (Proc.devRef .tc Cert.KernelIdeal.main_arg4) = (after (Cert.ReferenceIdeal.Stretches.opsLayer1 (F := F)) WR) (Proc.devRef .tc Cert.ReferenceIdeal.main_arg4)
      ∧ (after (hostOps1_1 (F := F)) (after hostOps1 WK)) (Proc.devRef .tc Cert.KernelIdeal.main_arg5) = (after (Cert.ReferenceIdeal.Stretches.opsLayer1 (F := F)) WR) (Proc.devRef .tc Cert.ReferenceIdeal.main_arg5) := by
  refine ⟨?_, ?_, ?_, ?_, ?_, ?_⟩
  · after_results_simp
    results_rw
    rw [h30, h3, h6, h29, hb1]
    rfl
  · after_results_simp
    results_rw
    rw [h3]
  · after_results_simp
    results_rw
    rw [h6]
  · after_results_simp
    results_rw
    rw [h29]
  · after_results_simp
    results_rw
    rw [hw2]
  · after_results_simp
    results_rw
    rw [hb2]

/-! ## After the second product -/

set_option maxHeartbeats 2000000 in
/-- From contents that agree on the second product, the two index lists, the normalisation and the last bias, the second
    layer's tail leaves the same result. -/
theorem after_products (WK : KV F) (WR : RV F)
    (h48 : WK (Proc.devRef .tc Cert.KernelIdeal.main_v48) = WR (Proc.devRef .tc Cert.ReferenceIdeal.main_v48)) (h3 : WK (Proc.devRef .tc Cert.KernelIdeal.main_v3) = WR (Proc.devRef .tc Cert.ReferenceIdeal.main_v3)) (h6 : WK (Proc.devRef .tc Cert.KernelIdeal.main_v6) = WR (Proc.devRef .tc Cert.ReferenceIdeal.main_v6)) (h29 : WK (Proc.devRef .tc Cert.KernelIdeal.main_v29) = WR (Proc.devRef .tc Cert.ReferenceIdeal.main_v29))
    (hb2 : WK (Proc.devRef .tc Cert.KernelIdeal.main_arg5) = WR (Proc.devRef .tc Cert.ReferenceIdeal.main_arg5)) :
    (after (hostOps2 (F := F)) WK) (Proc.devRef .tc Cert.KernelIdeal.main_v64) = (after (Cert.ReferenceIdeal.Stretches.opsLayer2 (F := F)) WR) (Proc.devRef .tc Cert.ReferenceIdeal.main_v64) := by
  after_results_simp
  results_rw
  rw [h48, h3, h6, h29, hb2]
  rfl

/-! ## The reference's two product operations -/

/-- The first product's operation writes `x · W1` of the contents it finds and keeps every other buffer. -/
theorem product1_writes (WR : RV F) :
    ((Cert.ReferenceIdeal.Stretches.opProduct1 (F := F)).result WR) (Proc.devRef .tc Cert.ReferenceIdeal.main_v30)
      = Host.dotGeneral Cert.ReferenceIdeal.dot_S100000x256_S256x40_S100000x40_1_0_0_1_n_n none
          (WR (Proc.devRef .tc Cert.ReferenceIdeal.main_arg0)) (WR (Proc.devRef .tc Cert.ReferenceIdeal.main_arg2)) := by
  unfold Cert.ReferenceIdeal.Stretches.opProduct1
  rw [binary_result]

theorem product1_keeps (WR : RV F) :
    ((Cert.ReferenceIdeal.Stretches.opProduct1 (F := F)).result WR) (Proc.devRef .tc Cert.ReferenceIdeal.main_v3) = WR (Proc.devRef .tc Cert.ReferenceIdeal.main_v3)
      ∧ ((Cert.ReferenceIdeal.Stretches.opProduct1 (F := F)).result WR) (Proc.devRef .tc Cert.ReferenceIdeal.main_v6) = WR (Proc.devRef .tc Cert.ReferenceIdeal.main_v6)
      ∧ ((Cert.ReferenceIdeal.Stretches.opProduct1 (F := F)).result WR) (Proc.devRef .tc Cert.ReferenceIdeal.main_v29) = WR (Proc.devRef .tc Cert.ReferenceIdeal.main_v29)
      ∧ ((Cert.ReferenceIdeal.Stretches.opProduct1 (F := F)).result WR) (Proc.devRef .tc Cert.ReferenceIdeal.main_arg3) = WR (Proc.devRef .tc Cert.ReferenceIdeal.main_arg3)
      ∧ ((Cert.ReferenceIdeal.Stretches.opProduct1 (F := F)).result WR) (Proc.devRef .tc Cert.ReferenceIdeal.main_arg4) = WR (Proc.devRef .tc Cert.ReferenceIdeal.main_arg4)
      ∧ ((Cert.ReferenceIdeal.Stretches.opProduct1 (F := F)).result WR) (Proc.devRef .tc Cert.ReferenceIdeal.main_arg5) = WR (Proc.devRef .tc Cert.ReferenceIdeal.main_arg5) := by
  unfold Cert.ReferenceIdeal.Stretches.opProduct1
  refine ⟨?_, ?_, ?_, ?_, ?_, ?_⟩ <;> (rw [binary_result_ne]; decide)

/-- The second product's operation writes `h · W2` of the contents it finds and keeps every other buffer. -/
theorem product2_writes (WR : RV F) :
    ((Cert.ReferenceIdeal.Stretches.opProduct2 (F := F)).result WR) (Proc.devRef .tc Cert.ReferenceIdeal.main_v48)
      = Host.dotGeneral Cert.ReferenceIdeal.dot_S100000x40_S40x20_S100000x20_1_0_0_1_n_n none
          (WR (Proc.devRef .tc Cert.ReferenceIdeal.main_v47)) (WR (Proc.devRef .tc Cert.ReferenceIdeal.main_arg4)) := by
  unfold Cert.ReferenceIdeal.Stretches.opProduct2
  rw [binary_result]

theorem product2_keeps (WR : RV F) :
    ((Cert.ReferenceIdeal.Stretches.opProduct2 (F := F)).result WR) (Proc.devRef .tc Cert.ReferenceIdeal.main_v3) = WR (Proc.devRef .tc Cert.ReferenceIdeal.main_v3)
      ∧ ((Cert.ReferenceIdeal.Stretches.opProduct2 (F := F)).result WR) (Proc.devRef .tc Cert.ReferenceIdeal.main_v6) = WR (Proc.devRef .tc Cert.ReferenceIdeal.main_v6)
      ∧ ((Cert.ReferenceIdeal.Stretches.opProduct2 (F := F)).result WR) (Proc.devRef .tc Cert.ReferenceIdeal.main_v29) = WR (Proc.devRef .tc Cert.ReferenceIdeal.main_v29)
      ∧ ((Cert.ReferenceIdeal.Stretches.opProduct2 (F := F)).result WR) (Proc.devRef .tc Cert.ReferenceIdeal.main_arg5) = WR (Proc.devRef .tc Cert.ReferenceIdeal.main_arg5) := by
  unfold Cert.ReferenceIdeal.Stretches.opProduct2
  refine ⟨?_, ?_, ?_, ?_⟩ <;> (rw [binary_result_ne]; decide)

end Cert.Bridge

end
-- ==== Proof.Bridge.lean ====
/-
  The two programs end with the same result.

  Follow the buffer contents of both programs from launch to return, boundary by boundary. At launch they agree on the
  six arguments. The operations before the first product are the same on both sides, so after them the contents agree on
  the source list, the destination list, the normalisation, and still on the arguments. At the first product the
  kernel's region leaves, in its result array, the product of the two arrays it was entered with (`Layer1.result_eq`),
  and the reference's one operation writes its `dot_general` of the same two arrays: both are the function
  `Σ_k x[p, k] · w[k, q]` (`Cert.Dense`), so the contents agree on the first product as well; neither side touches
  anything else the later stages read. The first layer's tail is again the same operations on both sides; the second
  product is handled as the first, its left operand now the clamped activations, on which the two sides agree; the
  second layer's tail is the same operations, and its last line is the result.

  No entry is ever required to be finite: nothing is rearranged, only the same sums and the same operations are
  recognised on the two sides.
-/
import proofs.«124285_j84911503442106_1_alg».proof.Proof.Gen.KernelIdeal.Frame
import proofs.«124285_j84911503442106_1_alg».proof.Proof.Layer1
import proofs.«124285_j84911503442106_1_alg».proof.Proof.Layer2
import proofs.«124285_j84911503442106_1_alg».proof.Proof.HostStretches
import proofs.«124285_j84911503442106_1_alg».proof.Proof.Dense

set_option maxRecDepth 16384

noncomputable section

namespace Cert.Bridge

open Idealize.ShloMosaic Idealize.ShloMosaic.TcCoe Idealize.SL.Sem Idealize.ShloMosaic.StableHlo
open Cert.KernelIdeal.Gen

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- From memories that agree on the six arguments, the kernel's result buffer at its last boundary holds what the
    reference's operations leave in the reference's result buffer. -/
theorem result_agrees (c : Dev Cert.KernelIdeal.nD)
    (e0 : W0 m ρ c (Proc.devRef .tc Cert.KernelIdeal.main_arg0) = launchContents m' c (Proc.devRef .tc Cert.ReferenceIdeal.main_arg0))
    (e1 : W0 m ρ c (Proc.devRef .tc Cert.KernelIdeal.main_arg1) = launchContents m' c (Proc.devRef .tc Cert.ReferenceIdeal.main_arg1))
    (e2 : W0 m ρ c (Proc.devRef .tc Cert.KernelIdeal.main_arg2) = launchContents m' c (Proc.devRef .tc Cert.ReferenceIdeal.main_arg2))
    (e3 : W0 m ρ c (Proc.devRef .tc Cert.KernelIdeal.main_arg3) = launchContents m' c (Proc.devRef .tc Cert.ReferenceIdeal.main_arg3))
    (e4 : W0 m ρ c (Proc.devRef .tc Cert.KernelIdeal.main_arg4) = launchContents m' c (Proc.devRef .tc Cert.ReferenceIdeal.main_arg4))
    (e5 : W0 m ρ c (Proc.devRef .tc Cert.KernelIdeal.main_arg5) = launchContents m' c (Proc.devRef .tc Cert.ReferenceIdeal.main_arg5)) :
    W8 m ρ c (Proc.devRef .tc Cert.KernelIdeal.main_v64)
      = after (Cert.ReferenceIdeal.ValueP.ops (F := Ideal)) (launchContents m' c) (Proc.devRef .tc Cert.ReferenceIdeal.main_v64) := by
  rw [Cert.ReferenceIdeal.Stretches.after_ops]
  -- the reference's contents at its boundaries
  generalize hR1 : after (Cert.ReferenceIdeal.Stretches.opsNorm (F := Ideal)) (launchContents m' c) = R1
  generalize hR2 : (Cert.ReferenceIdeal.Stretches.opProduct1 (F := Ideal)).result R1 = R2
  generalize hR3 : after (Cert.ReferenceIdeal.Stretches.opsLayer1 (F := Ideal)) R2 = R3
  generalize hR4 : (Cert.ReferenceIdeal.Stretches.opProduct2 (F := Ideal)).result R3 = R4
  -- before the first product
  obtain ⟨p3, p6, p29, pa0, pa2, pa3, pa4, pa5⟩ := before_products (W0 m ρ c) (launchContents m' c) e0 e1 e2 e3 e4 e5
  rw [hR1] at p3 p6 p29 pa0 pa2 pa3 pa4 pa5
  -- the first product
  obtain ⟨q3, q6, q29, qa3, qa4, qa5⟩ := product1_keeps R1
  have w30 := product1_writes R1
  rw [hR2] at q3 q6 q29 qa3 qa4 qa5 w30
  have h30 : W4 m ρ c (Proc.devRef .tc Cert.KernelIdeal.main_v30) = R2 (Proc.devRef .tc Cert.ReferenceIdeal.main_v30) := by
    refine ((W4_arr m ρ c 2).trans (Cert.KernelIdeal.Layer1.result_eq (V3 m ρ) c)).trans ?_
    rw [w30, Cert.Dense.dotGeneral_eq Cert.ReferenceIdeal.dot_S100000x256_S256x40_S100000x40_1_0_0_1_n_n rfl rfl rfl rfl rfl rfl none]
    exact congrArg₂ (Cert.Dense.rowsCols (M := 100000) (K := 256) (N := 40) (φ₁ := .f32) (φ₂ := .f32)) pa0 pa2
  have h3 : W4 m ρ c (Proc.devRef .tc Cert.KernelIdeal.main_v3) = R2 (Proc.devRef .tc Cert.ReferenceIdeal.main_v3) := (W4_of_ne m ρ c Cert.KernelIdeal.main_v3 (by decide)).trans (p3.trans q3.symm)
  have h6 : W4 m ρ c (Proc.devRef .tc Cert.KernelIdeal.main_v6) = R2 (Proc.devRef .tc Cert.ReferenceIdeal.main_v6) := (W4_of_ne m ρ c Cert.KernelIdeal.main_v6 (by decide)).trans (p6.trans q6.symm)
  have h29 : W4 m ρ c (Proc.devRef .tc Cert.KernelIdeal.main_v29) = R2 (Proc.devRef .tc Cert.ReferenceIdeal.main_v29) := (W4_of_ne m ρ c Cert.KernelIdeal.main_v29 (by decide)).trans (p29.trans q29.symm)
  have ha3 : W4 m ρ c (Proc.devRef .tc Cert.KernelIdeal.main_arg3) = R2 (Proc.devRef .tc Cert.ReferenceIdeal.main_arg3) := (W4_of_ne m ρ c Cert.KernelIdeal.main_arg3 (by decide)).trans (pa3.trans qa3.symm)
  have ha4 : W4 m ρ c (Proc.devRef .tc Cert.KernelIdeal.main_arg4) = R2 (Proc.devRef .tc Cert.ReferenceIdeal.main_arg4) := (W4_of_ne m ρ c Cert.KernelIdeal.main_arg4 (by decide)).trans (pa4.trans qa4.symm)
  have ha5 : W4 m ρ c (Proc.devRef .tc Cert.KernelIdeal.main_arg5) = R2 (Proc.devRef .tc Cert.ReferenceIdeal.main_arg5) := (W4_of_ne m ρ c Cert.KernelIdeal.main_arg5 (by decide)).trans (pa5.trans qa5.symm)
  -- between the products
  obtain ⟨s47, s3, s6, s29, sa4, sa5⟩ := between_products (W4 m ρ c) R2 h30 h3 h6 h29 ha3 ha4 ha5
  rw [hR3] at s47 s3 s6 s29 sa4 sa5
  -- the second product
  obtain ⟨t3, t6, t29, ta5⟩ := product2_keeps R3
  have w48 := product2_writes R3
  rw [hR4] at t3 t6 t29 ta5 w48
  have h48 : W7 m ρ c (Proc.devRef .tc Cert.KernelIdeal.main_v48) = R4 (Proc.devRef .tc Cert.ReferenceIdeal.main_v48) := by
    refine ((W7_arr m ρ c 2).trans (Cert.KernelIdeal.Layer2.result_eq (V6 m ρ) c)).trans ?_
    rw [w48, Cert.Dense.dotGeneral_eq Cert.ReferenceIdeal.dot_S100000x40_S40x20_S100000x20_1_0_0_1_n_n rfl rfl rfl rfl rfl rfl none]
    exact congrArg₂ (Cert.Dense.rowsCols (M := 100000) (K := 40) (N := 20) (φ₁ := .f32) (φ₂ := .f32)) s47 sa4
  have g3 : W7 m ρ c (Proc.devRef .tc Cert.KernelIdeal.main_v3) = R4 (Proc.devRef .tc Cert.ReferenceIdeal.main_v3) := (W7_of_ne m ρ c Cert.KernelIdeal.main_v3 (by decide)).trans (s3.trans t3.symm)
  have g6 : W7 m ρ c (Proc.devRef .tc Cert.KernelIdeal.main_v6) = R4 (Proc.devRef .tc Cert.ReferenceIdeal.main_v6) := (W7_of_ne m ρ c Cert.KernelIdeal.main_v6 (by decide)).trans (s6.trans t6.symm)
  have g29 : W7 m ρ c (Proc.devRef .tc Cert.KernelIdeal.main_v29) = R4 (Proc.devRef .tc Cert.ReferenceIdeal.main_v29) := (W7_of_ne m ρ c Cert.KernelIdeal.main_v29 (by decide)).trans (s29.trans t29.symm)
  have ga5 : W7 m ρ c (Proc.devRef .tc Cert.KernelIdeal.main_arg5) = R4 (Proc.devRef .tc Cert.ReferenceIdeal.main_arg5) := (W7_of_ne m ρ c Cert.KernelIdeal.main_arg5 (by decide)).trans (sa5.trans ta5.symm)
  -- after the second product
  exact after_products (W7 m ρ c) R4 h48 g3 g6 g29 ga5

end Cert.Bridge

end
-- ==== Proof.lean ====
/-
  A two-layer graph convolution, each layer `Â · (X · W) + b` with `Â` the symmetrically normalised adjacency with
  self-loops: the kernel's program computes the two dense products `X · W` in a tiled kernel each (row-blocks of 5000,
  operands rounded to a narrower float format on the way into the matrix unit, a zero accumulator) and does everything
  else — the edge list with self-loops, the degrees and the normalisation, the gather by source, the scaling, the segment
  sum by destination, the biases, the clamp at zero — with the very host operations the reference uses; the reference
  computes the two products with one `dot_general` each.

  Over the extended reals a change of float format is the identity and the zero accumulator adds nothing, so a tiled
  product and the host's product are both `Σ_k x[p, k] · w[k, q]`, entry by entry, with no condition on the entries
  (`Cert.Dense`). Each kernel region leaves in its result array the product of the arrays it was entered with, its twenty
  row-blocks tiling the array (`Layer1`, `Layer2`); the host operations around the products are the same on both sides and
  carry agreement of the two programs' buffer contents from one boundary to the next (`HostStretches`, `Bridge`). The
  kernel's program runs to its last boundary's contents (`KernelRun`), the reference to the fold of its operations
  (`ReferenceRun`), and `Bridge.result_agrees` says the two results are equal. The idealization pass rewrote nothing in
  the kernel, so there is nothing to preserve; the three frames are the runs with the results dropped.
-/
import proofs.«124285_j84911503442106_1_alg».proof.Defs
import proofs.«124285_j84911503442106_1_alg».proof.Proof.Gen.Kernel
import proofs.«124285_j84911503442106_1_alg».proof.Proof.Gen.Kernel.Frame
import proofs.«124285_j84911503442106_1_alg».proof.Proof.Gen.KernelIdeal
import proofs.«124285_j84911503442106_1_alg».proof.Proof.Gen.KernelIdeal.Frame
import proofs.«124285_j84911503442106_1_alg».proof.Proof.Gen.ReferenceIdeal
import proofs.«124285_j84911503442106_1_alg».proof.Proof.Gen.Pre_finite_inputs
import proofs.«124285_j84911503442106_1_alg».proof.Proof.KernelRun
import proofs.«124285_j84911503442106_1_alg».proof.Proof.ReferenceRun
import proofs.«124285_j84911503442106_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program as printed runs, and its arguments end unchanged. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference's run with the result dropped. -/
theorem frame_reference_ideal : Cert.frame_ReferenceIdeal := fun m ρ _ =>
  (θ_run Cert.ReferenceIdeal.defs _ _).mono (fun _ h c => (h c).2) (Cert.ReferenceIdeal.Whole.run_fold (F := Ideal) m ρ)

/-- The idealization pass rewrote no operation of the kernel. -/
theorem preserves : Cert.preserves_Kernel_KernelIdeal := trivial

/-- From memories that agree on the six arguments both programs run, the kernel's to its last boundary's contents at
    the result buffer and the reference's to the fold of its operations there; the two are equal. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Whole.run_result (F := Ideal) m ρ, ?_⟩
  refine (θ_run Cert.ReferenceIdeal.defs _ _).mono (fun r h c => ⟨(h c).1.trans ?_, (h c).2⟩)
    (Cert.ReferenceIdeal.Whole.run_fold (F := Ideal) m' ρ')
  obtain ⟨a0, a1, a2, a3, a4, a5⟩ := hagree c
  exact (Cert.Bridge.result_agrees m ρ m' c a0.symm a1.symm a2.symm a3.symm a4.symm a5.symm).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
